-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : IVec S33554432 32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S1x1 : Shape := ⟨2, ![1, 1]⟩
abbrev S4096x128 : Shape := ⟨2, ![4096, 128]⟩
abbrev S1x4096x128 : Shape := ⟨3, ![1, 4096, 128]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S262144x128, .f32⟩
  | .hbm, ⟨3, _⟩ => ⟨S262144x128, .i32⟩
  | .hbm, ⟨4, _⟩ => ⟨S1x1, .f32⟩
  | .hbm, ⟨5, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .i32⟩
  | .local _ .vmem, ⟨3, _⟩ => ⟨S4096x128, .i32⟩
  | .local _ .vmem, ⟨4, _⟩ => ⟨S1x1, .f32⟩
  | .local _ .vmem, ⟨5, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v28 : BitVec 1 := Scalar.cmpi .eq arg0 c63_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S4096x128_S1x4096x128 : S4096x128.ShapeCasts S1x4096x128
  reduces_S1x4096x128_S1 : S1x4096x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .i32 = 32 ∨ (Rect.block (s := S262144x128) S4096x128.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .i32⟩
  | .hbm, ⟨2, _⟩ => ⟨S_, .i32⟩
  | .hbm, ⟨3, _⟩ => ⟨S33554432, .i32⟩
  | .hbm, ⟨4, _⟩ => ⟨S33554432, .i1⟩
  | .hbm, ⟨5, _⟩ => ⟨S33554432, .f32⟩
  | .hbm, ⟨6, _⟩ => ⟨S_, .f32⟩
  | .hbm, ⟨7, _⟩ => ⟨S33554432, .f32⟩
  | .hbm, ⟨8, _⟩ => ⟨S33554432, .f32⟩
  | .hbm, ⟨9, _⟩ => ⟨S33554432, .f32⟩
  | .hbm, ⟨10, _⟩ => ⟨S33554432, .f32⟩
  | .hbm, ⟨11, _⟩ => ⟨S_, .f32⟩
  | .hbm, ⟨12, _⟩ => ⟨S33554432, .f32⟩
  | .hbm, ⟨13, _⟩ => ⟨S33554432, .f32⟩
  | .hbm, ⟨14, _⟩ => ⟨S33554432, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.CaseValues.lean ====
/-
  What each case of the body leaves behind, as values.

  The body has three cases. At the first grid point it stores zero into the one-element accumulator, reads it back,
  and leaves there the zero plus the point's tile sum. At every later point it leaves the accumulator it found plus
  the tile sum. At the last point it also stores into the output: zero minus the quotient of that new accumulator by
  2²⁵. Each of these is read off the stores the run found: every store covers its whole one-element buffer, so what a
  buffer ends holding is its last store's payload, and a load after a store reads that store's payload.
-/
import proofs.«122013_j40870908788864_1_alg».proof.Proof.Gen.KernelIdeal.Frame
import Idealize.ShloMosaic.Lib.Pipeline.Value
import Idealize.ShloMosaic.Lib.Tactic

noncomputable section

namespace Cert.KernelIdeal.CaseValues

open Cert.KernelIdeal Cert.KernelIdeal.Gen Idealize.ShloMosaic Idealize.ShloMosaic.TcCoe Idealize.ShloMosaic.Tactic Idealize.SL.Sem

variable {F : FTy → Type} [FloatOps F]

/-- The offsets `(0, 0)` of every access of the body are the zero offsets. -/
theorem offs_zero : (![0, 0] : Fin 2 → Nat) = fun _ => 0 := funext fun a => by fin_cases a <;> rfl

/-- First point: the accumulator ends at the stored zero plus the tile's sum. -/
theorem acc_first (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x1 .f32) (harg3 : arg3.IsWhole) (arg4 : Memref sig .tc .vmem S1x1 .f32) (harg4 : arg4.IsWhole) (hc0 : cond0_0 i) (hc1 : ¬cond0_1 i)
    (x0 : Vec F S4096x128 .f32) (x1 : Vec F S4096x128 .i32) :
    sout0_A_0 c i arg1 harg1 arg2 harg2 arg3 harg3 arg4 harg4 hc0 hc1 x0 x1 = k0_pay2 x0 x1 (k0_pay1 (F := F)) := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x1) offs_zero, View.readCov_unit_zero (S := S1x1) _ offs_zero]
  simp only [View.readAt_eq_ld, harg1.read_unread, harg2.read_unread, View.ld_unit_zero (S := S4096x128) offs_zero]

/-- A middle point: the accumulator ends at what it held plus the tile's sum. -/
theorem acc_middle (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : ¬cond0_1 i)
    (x0 : Vec F S4096x128 .f32) (x1 : Vec F S4096x128 .i32) (xs0 : Vec F S1x1 .f32) :
    sout0_B_0 c i arg1 harg1 arg2 harg2 arg3 harg3 arg4 harg4 hc0 hc1 x0 x1 xs0 = k0_pay2 x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero (S := S1x1) offs_zero]
  simp only [View.readAt_eq_ld, harg1.read_unread, harg2.read_unread, harg4.read_unread,
    View.ld_unit_zero (S := S4096x128) offs_zero, View.ld_unit_zero (S := S1x1) offs_zero]

/-- The last point: the accumulator likewise, -/
theorem acc_last (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S4096x128 .f32) (x1 : Vec F S4096x128 .i32) (xs0 : Vec F S1x1 .f32) :
    sout0_C_0 c i arg1 harg1 arg2 harg2 arg3 harg3 arg4 harg4 hc0 hc1 x0 x1 xs0 = k0_pay2 x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero (S := S1x1) offs_zero]
  simp only [View.readAt_eq_ld, harg1.read_unread, harg2.read_unread, harg4.read_unread,
    View.ld_unit_zero (S := S4096x128) offs_zero, View.ld_unit_zero (S := S1x1) offs_zero]

/-- and the output ends at the negated quotient of that new accumulator. -/
theorem out_last (c : Dev nD) (i : grid0.Coords) (arg1 : Memref sig .tc .vmem S4096x128 .f32) (harg1 : arg1.IsWhole) (arg2 : Memref sig .tc .vmem S4096x128 .i32) (harg2 : arg2.IsWhole) (arg3 : Memref sig .tc .vmem S1x1 .f32) (harg3 : arg3.IsWhole) (arg4 : Memref sig .tc .vmem S1x1 .f32) (harg4 : arg4.IsWhole) (hc0 : ¬cond0_0 i) (hc1 : cond0_1 i)
    (x0 : Vec F S4096x128 .f32) (x1 : Vec F S4096x128 .i32) (xs0 : Vec F S1x1 .f32) :
    out0_C_2 c i arg1 harg1 arg2 harg2 arg3 harg3 arg4 harg4 hc0 hc1 x0 x1 xs0 = k0_pay3 (k0_pay2 x0 x1 xs0) := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero (S := S1x1) offs_zero, View.readCov_unit_zero (S := S1x1) _ offs_zero]
  simp only [View.readAt_eq_ld, harg1.read_unread, harg2.read_unread, harg4.read_unread,
    View.ld_unit_zero (S := S4096x128) offs_zero, View.ld_unit_zero (S := S1x1) offs_zero]

end Cert.KernelIdeal.CaseValues

end
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.LossSpec.lean ====
/-
  The balanced log loss as one function of its two argument arrays.

  For probabilities `p` and labels `t`, both of length 2²⁵, one element contributes `2 · log p` where its label is `1`
  and `1 · log (1 + (-p))` elsewhere, and the loss is minus the quotient of the sum of all contributions by 2²⁵.
  On the extended reals addition is commutative and associative without any finiteness assumption, so the sum may be
  taken in any grouping. The regrouping stated here: the sum over 262144 rows of 128 is the sum, over 64 consecutive
  tiles of 4096 rows, of each tile's sum.
-/
import Idealize.ShloMosaic.PureOps.Ideal
import Idealize.ShloMosaic.Lib.ValueIdx
import Idealize.ShloMosaic.PureOps.Ideal.Laws
import proofs.«122013_j40870908788864_1_alg».proof.Proof.LibGroupedSum

noncomputable section

open scoped BigOperators

namespace LossSpec

open Idealize.ShloMosaic Idealize.ShloMosaic.ValueIdx

/-- The flat arrays' shape, the same arrays in rows of 128, and one tile of 4096 rows. -/
abbrev Flat : Shape := ⟨1, ![33554432]⟩
abbrev Rows : Shape := ⟨2, ![262144, 128]⟩
abbrev Tile : Shape := ⟨2, ![4096, 128]⟩

/-- One element's contribution: `2 · log p` under label `1`, `1 · log (1 + (-p))` under any other label. -/
def term (p : EReal) (t : BitVec 32) : EReal :=
  Scalar.select (IntOp.cmpi .eq t 1#32) (Ideal.ofBits .f32 0x40000000#32 * Ideal.log p)
    (Ideal.ofBits .f32 0x3F800000#32 * Ideal.log1p (-p))

/-- Minus the mean: the quotient of a total by 2²⁵ (the word `0x4C000000`), negated. -/
def negMean (total : EReal) : EReal := -(Ideal.div total (Ideal.ofBits .f32 0x4C000000#32))

/-- The loss of flat arrays `p`, `t`. -/
def loss (p : Flat.Idx → EReal) (t : Flat.Idx → BitVec 32) : EReal := negMean (∑ i, term (p i) (t i))

/-- Row `r` of tile `s` is row `4096 · s + r` of the array; the lane is kept. -/
def tileIdx (s : Fin 64) (r : Fin 4096) (l : Fin 128) : Rows.Idx :=
  ix2 (⟨s.val * 4096 + r.val, GroupedSum.group_lt (J := 64) (B := 4096) (K := 262144) rfl s r⟩ : Fin 262144) l

/-- The sum over all rows is the sum of the 64 tiles' sums. -/
theorem sum_tiles (P : Rows.Idx → EReal) :
    ∑ j, P j = ∑ s : Fin 64, ∑ r : Fin 4096, ∑ l : Fin 128, P (tileIdx s r l) := by
  rw [sum_idx2 P]
  exact GroupedSum.sum_groups (J := 64) (B := 4096) (K := 262144) rfl (fun R : Fin 262144 => ∑ l : Fin 128, P (ix2 R l))

/-- On the extended reals `0 - x` is `-x`. -/
theorem zero_sub_eq (x : EReal) : Ideal.ofBits .f32 0x00000000#32 - x = -x := by
  rw [Ideal.ofBits_zero_f32, zero_sub]

end LossSpec
-- ==== Proof.Blocks.lean ====
/-
  The tiles the body is given.

  Before the region the host lays both flat arrays out in rows of 128: the element at row-major position `k` stays at
  row-major position `k`. At grid point `t` each input window's block is tile `t` of its array: entry `(r, l)` of the
  block is entry `(4096 · t + r, l)` of the array, since a block's coordinate on an axis is the block index times
  the block size plus the coordinate inside the block, and the block index is `(t, 0)`.
-/
import proofs.«122013_j40870908788864_1_alg».proof.Proof.Gen.KernelIdeal.Frame
import proofs.«122013_j40870908788864_1_alg».proof.Proof.LossSpec
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The probabilities as the region finds them: the flat argument in rows of 128. -/
theorem rows_probs (c : Dev nD) :
    (V m c main_v0 : S262144x128.Idx → Elt F .f32)
      = shapeCast S262144x128 (m ((c : Thread nD τ).loc main_arg0)) shapeCasts_S33554432_S262144x128 := by
  show StableHlo.after hostOps0 (fun b => m (c, b)) (Proc.devRef .tc main_v0) = _
  after_results
  rfl

/-- The labels as the region finds them: the flat argument in rows of 128. -/
theorem rows_labels (c : Dev nD) :
    (V m c main_v1 : S262144x128.Idx → Elt F .i32)
      = shapeCast S262144x128 (m ((c : Thread nD τ).loc main_arg1)) shapeCasts_S33554432_S262144x128 := by
  show StableHlo.after hostOps0 (fun b => m (c, b)) (Proc.devRef .tc main_v1) = _
  after_results
  rfl

/-- A grid point as a number below 64. -/
def tile (t : Fin cfg0.N) : Fin 64 := ⟨t.val, lt_of_lt_of_eq t.isLt N_0⟩

/-- Both input windows' block index at point `t` is `(t, 0)`: decided over the 64 points. -/
theorem index_probs : ∀ t : Fin cfg0.N, win0_0.index t 0 = t.val ∧ win0_0.index t 1 = 0 :=
  (by decide +kernel : ∀ t : Fin grid0.N, win0_0.index t 0 = t.val ∧ win0_0.index t 1 = 0)
theorem index_labels : ∀ t : Fin cfg0.N, win0_1.index t 0 = t.val ∧ win0_1.index t 1 = 0 :=
  (by decide +kernel : ∀ t : Fin grid0.N, win0_1.index t 0 = t.val ∧ win0_1.index t 1 = 0)

/-- Entry `(r, l)` of the probabilities' block at point `t` is entry `(4096 · t + r, l)` of the array. -/
theorem block_probs (c : Dev nD) (t : Fin cfg0.N) (r : Fin 4096) (l : Fin 128) :
    (iblk m c 0 t : Vec F S4096x128 .f32) (ix2 r l) = (V m c main_v0 : S262144x128.Idx → Elt F .f32) (LossSpec.tileIdx (tile t) r l) := by
  unfold iblk
  rw [View.read_apply]
  show V m c main_v0 _ = V m c main_v0 _
  refine congrArg (V m c main_v0) (funext fun a => Fin.ext ?_)
  match a with
  | ⟨0, _⟩ => show win0_0.index t 0 * 4096 + 1 * r.val = t.val * 4096 + r.val; rw [(index_probs t).1]; omega
  | ⟨1, _⟩ => show win0_0.index t 1 * 128 + 1 * l.val = l.val; rw [(index_probs t).2]; omega

/-- Entry `(r, l)` of the labels' block at point `t` is entry `(4096 · t + r, l)` of the array. -/
theorem block_labels (c : Dev nD) (t : Fin cfg0.N) (r : Fin 4096) (l : Fin 128) :
    (iblk m c 1 t : Vec F S4096x128 .i32) (ix2 r l) = (V m c main_v1 : S262144x128.Idx → Elt F .i32) (LossSpec.tileIdx (tile t) r l) := by
  unfold iblk
  rw [View.read_apply]
  show V m c main_v1 _ = V m c main_v1 _
  refine congrArg (V m c main_v1) (funext fun a => Fin.ext ?_)
  match a with
  | ⟨0, _⟩ => show win0_1.index t 0 * 4096 + 1 * r.val = t.val * 4096 + r.val; rw [(index_labels t).1]; omega
  | ⟨1, _⟩ => show win0_1.index t 1 * 128 + 1 * l.val = l.val; rw [(index_labels t).2]; omega

end Cert.KernelIdeal.Blocks

end
-- ==== Proof.LibSumReshape.lean ====
/-
  Reshaping does not change a sum.

  Two shapes with as many elements index the same elements by row-major position, and that correspondence is a
  bijection between the two index sets. So the sum of a function over one index set equals the sum, over the other,
  of the function at the corresponding index; in particular an array and its reshape have the same sum. Only
  commutativity and associativity of the addition enter: the law holds in any commutative additive monoid, on the
  extended reals without any finiteness assumption.
-/
import Idealize.ShloMosaic.Lib.ValueIdx

noncomputable section

open scoped BigOperators

namespace SumReshape

open Idealize.ShloMosaic

/-- A sum over one shape's indices equals the sum, over the indices of another shape of as many elements, of the
    function at the index with the same row-major position. -/
theorem sum_reshape {β : Type*} [AddCommMonoid β] {s s' : Shape} (h : s'.numel = s.numel) (f : s.Idx → β) :
    ∑ j : s'.Idx, f (Shape.reshapeEquiv h j) = ∑ i, f i :=
  Equiv.sum_comp (Shape.reshapeEquiv h) f

/-- A reshaped array has the sum of the array it reshapes. -/
theorem sum_shapeCast {β : Type} [AddCommMonoid β] {s s' : Shape} (x : s.Idx → β) (h : s.ShapeCasts s') :
    ∑ j : s'.Idx, shapeCast s' x h j = ∑ i, x i :=
  sum_reshape h x

end SumReshape
-- ==== Proof.TileSum.lean ====
/-
  The body's three stored values on the extended reals.

  The zero the first point stores is the extended real `0`. The accumulator update stores, at its one index, the old
  accumulator plus the sum over the whole 4096 × 128 tile of the elements' contributions: the tile is given a leading
  unit axis and reduced over its two other axes, which on the extended reals is the plain sum over every index, and
  re-indexing by row-major position does not change a sum. The last point's output is the negated quotient by 2²⁵ of
  the accumulator it is given.
-/
import proofs.«122013_j40870908788864_1_alg».proof.Proof.Gen.KernelIdeal.Skeleton
import proofs.«122013_j40870908788864_1_alg».proof.Proof.LossSpec
import proofs.«122013_j40870908788864_1_alg».proof.Proof.LibSumReshape
import Idealize.ShloMosaic.Lib.Pipeline.Value

noncomputable section

open scoped BigOperators

namespace Cert.KernelIdeal.TileSum

open Cert.KernelIdeal Cert.KernelIdeal.Gen Idealize.ShloMosaic Idealize.ShloMosaic.ValueIdx

/-- The tile's sum of contributions, for a tile `p` of probabilities and `t` of labels. -/
def tileSum (p : FVec Ideal S4096x128 .f32) (t : IVec S4096x128 32) : EReal :=
  ∑ y : S4096x128.Idx, LossSpec.term (p y) (t y)

/-- The stored zero is `0`. -/
theorem zero_apply (y : S1x1.Idx) : k0_pay1 (F := Ideal) y = 0 := by
  unfold k0_pay1
  rw [shapeCast_self]
  exact Ideal.ofBits_zero_f32

/-- A reduction of a `[1, 4096, 128]` array over its two long axes is the sum over every index (the accumulator
    word is the zero word, the sum's neutral element). -/
theorem reduce_all (src : FVec Ideal S1x4096x128 .f32) (h : S1x4096x128.Reduces [1, 2] S1) (hφ : FKind.Formats .f32)
    (hacc : (0x00000000#32 : BitVec 32) = FKind.add.neutral .f32 hφ) (j : S1.Idx) :
    multiReduction .add [1, 2] S1 src 0x00000000#32 h hφ hacc j = ∑ i : S1x4096x128.Idx, src i :=
  Ideal.multiReduction_add_total src 0x00000000#32 h (fun b => by fin_cases b; rfl) hφ hacc j

/-- A one-element vector has one index. -/
theorem idx_unique (a b : S1.Idx) : a = b :=
  funext fun d => match d with
    | ⟨0, _⟩ => Fin.ext (by
        have ha : (a 0).val < 1 := (a 0).isLt
        have hb : (b 0).val < 1 := (b 0).isLt
        show (a 0).val = (b 0).val
        omega)

/-- A one-element vector recast to `[1, 1, 1]`, its element extracted and broadcast to `[1, 1]`, reads that element. -/
theorem extract_apply (v : FVec Ideal S1 .f32) (y : S1x1.Idx) :
    broadcast S1x1 (extractAt ![0, 0, 0] (shapeCast S1x1x1 v shapeCasts_S1_S1x1x1) inpos_S1x1x1_p0_0_0) y = v (ix1 (0 : Fin 1)) := by
  unfold broadcast extractAt shapeCast
  exact congrArg v (idx_unique _ _)

/-- The accumulator update at its one index: the old accumulator plus the tile's sum. -/
theorem update_apply (p : Vec Ideal S4096x128 .f32) (t : Vec Ideal S4096x128 .i32) (acc : Vec Ideal S1x1 .f32) (y : S1x1.Idx) :
    k0_pay2 (F := Ideal) p t acc y = acc y + tileSum p t := by
  unfold k0_pay2
  rw [shapeCast_self, shapeCast_self, shapeCast_self]
  refine (addf_apply _ _ y).trans (congrArg (fun z => acc y + z) ?_)
  refine (extract_apply _ y).trans ?_
  refine (reduce_all _ _ _ _ _).trans ?_
  refine (SumReshape.sum_shapeCast _ shapeCasts_S4096x128_S1x4096x128).trans ?_
  unfold tileSum LossSpec.term
  refine Finset.sum_congr rfl fun i _ => ?_
  simp only [select, cmpi, mulf, log, log1p, subf, broadcast, Ideal.mulf_def, Ideal.log_def, Ideal.log1p_def,
    Ideal.subf_def, Scalar.ofBits, Ideal.ofBits_def, LossSpec.zero_sub_eq]

/-- The output at its one index: the negated quotient by 2²⁵ of the accumulator. -/
theorem output_apply (acc : Vec Ideal S1x1 .f32) (y : S1x1.Idx) :
    k0_pay3 (F := Ideal) acc y = LossSpec.negMean (acc y) := by
  unfold k0_pay3 LossSpec.negMean
  simp only [subf, divf, broadcast, Ideal.subf_def, Ideal.divf_def, Scalar.ofBits, Ideal.ofBits_def, LossSpec.zero_sub_eq]

end Cert.KernelIdeal.TileSum

end
-- ==== Proof.PointSums.lean ====
/-
  The 64 tile sums add up to the whole sum.

  The sum the body adds at grid point `t` is the sum of the contributions of tile `t`: the block's entry `(r, l)` is
  the array's entry `(4096 · t + r, l)`, which is the flat argument's entry at the same row-major position. Summed
  over the 64 points these are all rows of the array, that is, all entries of the flat arguments.
-/
import proofs.«122013_j40870908788864_1_alg».proof.Proof.Blocks
import proofs.«122013_j40870908788864_1_alg».proof.Proof.TileSum
import proofs.«122013_j40870908788864_1_alg».proof.Proof.LibSumReshape

noncomputable section

open scoped BigOperators

namespace Cert.KernelIdeal.PointSums

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The contribution of the array's entry `j`: that of the flat arguments' entry at the same row-major position. -/
def contribution (c : Dev nD) (j : S262144x128.Idx) : EReal :=
  LossSpec.term (m ((c : Thread nD τ).loc main_arg0) (Shape.reshapeEquiv shapeCasts_S33554432_S262144x128 j))
    (m ((c : Thread nD τ).loc main_arg1) (Shape.reshapeEquiv shapeCasts_S33554432_S262144x128 j))

/-- The sum the body adds at point `n` (`0` past the grid). -/
def pointSum (c : Dev nD) (n : ℕ) : EReal :=
  if h : n < cfg0.N then TileSum.tileSum (iblk m c 0 ⟨n, h⟩) (iblk m c 1 ⟨n, h⟩) else 0

/-- Inside the grid it is the tile sum of the point's two blocks. -/
theorem pointSum_of_lt (c : Dev nD) (n : ℕ) (h : n < cfg0.N) :
    pointSum m c n = TileSum.tileSum (iblk m c 0 ⟨n, h⟩) (iblk m c 1 ⟨n, h⟩) := dif_pos h

/-- The sum added at a point is the sum of its tile's contributions. -/
theorem tileSum_point (c : Dev nD) (t : Fin cfg0.N) :
    TileSum.tileSum (iblk m c 0 t) (iblk m c 1 t)
      = ∑ r : Fin 4096, ∑ l : Fin 128, contribution m c (LossSpec.tileIdx (Blocks.tile t) r l) := by
  unfold TileSum.tileSum
  refine (sum_idx2 _).trans ?_
  refine Finset.sum_congr rfl fun r _ => Finset.sum_congr rfl fun l _ => ?_
  exact congrArg₂ LossSpec.term
    ((Blocks.block_probs m c t r l).trans (congrFun (Blocks.rows_probs m c) _))
    ((Blocks.block_labels m c t r l).trans (congrFun (Blocks.rows_labels m c) _))

/-- All 64 points' sums together are the sum over the flat arguments. -/
theorem sum_points (c : Dev nD) :
    ∑ k ∈ Finset.range 64, pointSum m c k
      = ∑ i : S33554432.Idx, LossSpec.term (m ((c : Thread nD τ).loc main_arg0) i) (m ((c : Thread nD τ).loc main_arg1) i) := by
  rw [Finset.sum_range (fun k => pointSum m c k)]
  rw [← SumReshape.sum_reshape shapeCasts_S33554432_S262144x128
    (fun i : S33554432.Idx => LossSpec.term (m ((c : Thread nD τ).loc main_arg0) i) (m ((c : Thread nD τ).loc main_arg1) i))]
  refine Eq.trans ?_ (LossSpec.sum_tiles (contribution m c)).symm
  refine Finset.sum_congr rfl fun s _ => ?_
  rw [pointSum_of_lt m c s.val (lt_of_lt_of_eq s.isLt N_0.symm)]
  exact tileSum_point m c ⟨s.val, lt_of_lt_of_eq s.isLt N_0.symm⟩

end Cert.KernelIdeal.PointSums

end
-- ==== Proof.Accum.lean ====
/-
  The accumulator across the grid.

  After grid point `n` the one-element accumulator holds the sum of the tile sums of points `0, …, n`: the first point
  stores zero and adds its tile sum, every later point adds its own to what the point before left — an induction on
  the point. At the last point the output holds the negated quotient by 2²⁵ of that accumulator.
-/
import proofs.«122013_j40870908788864_1_alg».proof.Proof.CaseValues
import proofs.«122013_j40870908788864_1_alg».proof.Proof.PointSums

noncomputable section

open scoped BigOperators

namespace Cert.KernelIdeal.Accum

open Cert.KernelIdeal Cert.KernelIdeal.Gen Idealize.ShloMosaic Idealize.ShloMosaic.TcCoe Idealize.SL.Sem

variable (m : (ℓ : Loc nD τ sig) → Buf (Elt Ideal) ℓ)

/-- The sum of the tile sums of points `0, …, n`. -/
def running (c : Dev nD) (n : ℕ) : EReal := ∑ k ∈ Finset.range (n + 1), PointSums.pointSum m c k

theorem running_zero (c : Dev nD) : running m c 0 = PointSums.pointSum m c 0 := Finset.sum_range_one _

theorem running_succ (c : Dev nD) (n : ℕ) : running m c (n + 1) = running m c n + PointSums.pointSum m c (n + 1) :=
  Finset.sum_range_succ _ _

/-- The first point's store: zero plus the tile sum is the tile sum. -/
theorem first_value (p : Vec Ideal S4096x128 .f32) (t : Vec Ideal S4096x128 .i32) :
    k0_pay2 (F := Ideal) p t (k0_pay1 (F := Ideal)) = fun _ => TileSum.tileSum p t :=
  funext fun y => (TileSum.update_apply p t _ y).trans (by rw [TileSum.zero_apply, zero_add])

/-- A later point's store over an accumulator holding `a`. -/
theorem next_value (p : Vec Ideal S4096x128 .f32) (t : Vec Ideal S4096x128 .i32) (a : EReal) :
    k0_pay2 (F := Ideal) p t (fun _ => a : Vec Ideal S1x1 .f32) = fun _ => a + TileSum.tileSum p t :=
  funext fun y => TileSum.update_apply p t _ y

/-- The output's store over an accumulator holding `a`. -/
theorem out_value (a : EReal) :
    k0_pay3 (F := Ideal) (fun _ => a : Vec Ideal S1x1 .f32) = fun _ => LossSpec.negMean a :=
  funext fun y => TileSum.output_apply _ y

/-- After point `n` the accumulator holds the running sum. -/
theorem acc_eq (c : Dev nD) : ∀ (n : ℕ) (h : n < cfg0.N), (outsAt0 m c n h).2 = fun _ => running m c n
  | 0, h => by
    have h1 : ¬(⟨0, h⟩ : Fin cfg0.N).val % 64 = 63 := by dsimp only; omega
    refine (congrArg Prod.snd (outsAt0_A m c ⟨0, h⟩ rfl h1)).trans ?_
    dsimp only
    refine (CaseValues.acc_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) scM0_0 (Memref.isWhole_whole _) ((hcond0_0 ⟨0, h⟩).mpr rfl) (fun hh => h1 ((hcond0_1 ⟨0, h⟩).mp hh))
      (iblk m c 0 ⟨0, h⟩) (iblk m c 1 ⟨0, h⟩)).trans ?_
    refine (first_value _ _).trans ?_
    funext _
    rw [running_zero, PointSums.pointSum_of_lt m c 0 h]
  | n + 1, h => by
    have hN : cfg0.N = 64 := N_0
    have h0 : ¬(⟨n + 1, h⟩ : Fin cfg0.N).val % 64 = 0 := by dsimp only; omega
    have ih := acc_eq c n (Nat.lt_of_succ_lt h)
    by_cases h1 : (⟨n + 1, h⟩ : Fin cfg0.N).val % 64 = 63
    · refine (congrArg Prod.snd (outsAt0_C m c ⟨n + 1, h⟩ h0 h1)).trans ?_
      dsimp only
      refine (CaseValues.acc_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩)
        (outsAt0 m c n (Nat.lt_of_succ_lt h)).2).trans ?_
      rw [ih]
      refine (next_value _ _ _).trans ?_
      funext _
      rw [running_succ, PointSums.pointSum_of_lt m c (n + 1) h]
    · refine (congrArg Prod.snd (outsAt0_B m c ⟨n + 1, h⟩ h0 h1)).trans ?_
      dsimp only
      refine (CaseValues.acc_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩)
        (outsAt0 m c n (Nat.lt_of_succ_lt h)).2).trans ?_
      rw [ih]
      refine (next_value _ _ _).trans ?_
      funext _
      rw [running_succ, PointSums.pointSum_of_lt m c (n + 1) h]

/-- At the last point the output holds the negated mean of the running sum. -/
theorem out_eq (c : Dev nD) (n : ℕ) (h : n + 1 < cfg0.N) (h1 : (n + 1) % 64 = 63) :
    (outsAt0 m c (n + 1) h).1 = fun _ => LossSpec.negMean (running m c (n + 1)) := by
  have hN : cfg0.N = 64 := N_0
  have h0 : ¬(⟨n + 1, h⟩ : Fin cfg0.N).val % 64 = 0 := by dsimp only; omega
  refine (congrArg Prod.fst (outsAt0_C m c ⟨n + 1, h⟩ h0 h1)).trans ?_
  dsimp only
  refine (CaseValues.out_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩)
    (outsAt0 m c n (Nat.lt_of_succ_lt h)).2).trans ?_
  rw [acc_eq m c n (Nat.lt_of_succ_lt h)]
  refine (congrArg (k0_pay3 (F := Ideal)) (next_value _ _ _)).trans ?_
  refine (out_value _).trans ?_
  funext _
  rw [running_succ, PointSums.pointSum_of_lt m c (n + 1) h]

end Cert.KernelIdeal.Accum

end
-- ==== Proof.KernelLoss.lean ====
/-
  The kernel computes the loss.

  The output window is written back once, after the last grid point, and its one block is the whole `[1, 1]` output
  array; so the array ends holding, at its one entry, the negated quotient by 2²⁵ of the sum of all 64 tile sums,
  which is the sum over the flat arguments: the loss. The host then recasts that array to a scalar, the same element.
-/
import proofs.«122013_j40870908788864_1_alg».proof.Proof.Accum
import Idealize.ShloMosaic.Lib.Pipeline.Value
import Idealize.ShloMosaic.Lib.StableHlo.Run

noncomputable section

open scoped BigOperators

namespace Cert.KernelIdeal.KernelLoss

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The loss of the two flat arguments as launched. -/
def lossOf (c : Dev nD) : EReal :=
  LossSpec.loss (m ((c : Thread nD τ).loc main_arg0)) (m ((c : Thread nD τ).loc main_arg1))

/-- After the last point the running sum is the sum over the flat arguments, so its negated mean is the loss. -/
theorem negMean_running (c : Dev nD) : LossSpec.negMean (Accum.running m c 63) = lossOf m c := by
  unfold lossOf LossSpec.loss
  refine congrArg LossSpec.negMean ?_
  exact PointSums.sum_points m c

/-- The output array's final contents: the loss at its one entry. -/
abbrev result (c : Dev nD) : Buf (Elt Ideal) ((c : Thread nD τ).loc main_v2) := fun _ => lossOf m c

/-- The one write-back, after the last point, writes it. -/
theorem flushed_eq (c : Dev nD) (t : Fin cfg0.N) (hf : (cfg0.win 2).flush t = true) :
    (dats m 0 c).flushed 2 t = ((cfg0.win 2).blk t).view.read (Elt Ideal) (result m c) := by
  have hN : cfg0.N = 64 := N_0
  have h63 : t.val % 64 = 63 := (flush0_2 t).mp hf
  obtain ⟨n, hn⟩ := t
  obtain ⟨k, rfl⟩ : ∃ k, n = k + 1 := ⟨n - 1, by dsimp only at h63; omega⟩
  have hk : k = 62 := by dsimp only at h63; omega
  subst hk
  show (cfg0.win 2).cut (grid0.coords ⟨62 + 1, hn⟩) ((dats m 0 c).after 2 ⟨62 + 1, hn⟩) = _
  rw [after0_2]
  show (cfg0.win 2).cut (grid0.coords ⟨62 + 1, hn⟩) (outsAt0 m c (62 + 1) hn).1 = _
  rw [Accum.out_eq m c 62 hn rfl]
  funext y
  rw [View.read_apply]
  exact negMean_running m c

/-- The output window's block at every point is the whole one-entry array: decided over the 64 points. -/
theorem out_block : ∀ t : Fin cfg0.N,
    (win0_2.index t 0 * win0_2.size 0 = 0 ∧ win0_2.xsize (grid0.coords t) 0 = 1)
      ∧ (win0_2.index t 1 * win0_2.size 1 = 0 ∧ win0_2.xsize (grid0.coords t) 1 = 1) :=
  (by decide +kernel : ∀ t : Fin grid0.N,
    (win0_2.index t 0 * win0_2.size 0 = 0 ∧ win0_2.xsize (grid0.coords t) 0 = 1)
      ∧ (win0_2.index t 1 * win0_2.size 1 = 0 ∧ win0_2.xsize (grid0.coords t) 1 = 1))

/-- The last grid point. -/
def lastPoint : Fin cfg0.N := ⟨63, by have : cfg0.N = 64 := N_0; omega⟩

/-- So the output array ends holding the loss. -/
theorem final_out (c : Dev nD) : (dats m 0 c).arrAt 2 cfg0.N = result m c :=
  (dats m 0 c).arrAt_eq_of_cover 2 (result m c) (flushed_eq m c) fun i =>
    ⟨lastPoint, (flush0_2 lastPoint).mpr rfl, by
      show i ∈ ((View.whole main_v2).slice (win0_2.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPoint 0 * win0_2.size 0 ≤ (i 0 : Nat)
          ∧ (i 0 : Nat) < win0_2.index lastPoint 0 * win0_2.size 0 + win0_2.xsize (grid0.coords lastPoint) 0
        rw [(out_block lastPoint).1.1, (out_block lastPoint).1.2]; omega
      | ⟨1, _⟩ =>
        show win0_2.index lastPoint 1 * win0_2.size 1 ≤ (i 1 : Nat)
          ∧ (i 1 : Nat) < win0_2.index lastPoint 1 * win0_2.size 1 + win0_2.xsize (grid0.coords lastPoint) 1
        rw [(out_block lastPoint).2.1, (out_block lastPoint).2.2]; omega⟩

/-- The scalar result after the host's recast of the output array: the loss. -/
theorem tail_eq (c : Dev nD) :
    Pipeline.afterTail₀ cfgs (dats m) 0 (V0 m) [hostOps1] c main_v3 = fun _ => lossOf m c := by
  unfold Pipeline.afterTail₀
  show StableHlo.after hostOps1 _ (Proc.devRef .tc main_v3) = _
  after_results
  rw [Pipeline.withArrays_arr spec0 launch0.win.arr_inj c _ _ 2, final_out m c]
  rfl

/-- The run, read: the scalar result at the loss of the arguments, the arguments unchanged. -/
theorem run : θ_run defs (onTc (τ := τ) (main (F := Ideal))) ⟨m, fun _ => 0, ρ⟩ fun r => ∀ c : Dev nD,
      r.2.mem ((c.tc : Thread nD τ).loc main_v3) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelLoss

end
-- ==== Proof.RefLoss.lean ====
/-
  The reference computes the loss.

  Read one operation at a time, the reference's result at its one index is: the negation of the quotient by 2²⁵ of
  `0 + ∑ᵢ select (tᵢ = 1) (2 · log pᵢ) (1 · log (1 + (-pᵢ)))` — the loss of the argument arrays, the leading zero of
  the host's sum dropped.
-/
import proofs.«122013_j40870908788864_1_alg».proof.Proof.Gen.ReferenceIdeal.Read
import proofs.«122013_j40870908788864_1_alg».proof.Proof.LossSpec

noncomputable section

open scoped BigOperators

namespace Cert.ReferenceIdeal.RefLoss

open Cert.ReferenceIdeal Cert.ReferenceIdeal.Read Idealize.ShloMosaic Idealize.ShloMosaic.ValueIdx

/-- The reference's last stage, at its one index, is the loss of the two argument arrays. -/
theorem result_eq (p : (⟨S33554432, .f32⟩ : BufTy).Contents (Elt Ideal)) (t : (⟨S33554432, .i32⟩ : BufTy).Contents (Elt Ideal)) :
    val_main_v12 (F := Ideal) p t = fun _ => LossSpec.loss p t := by
  funext i
  rw [val_main_v12_apply, val_main_v11_apply, val_main_v10_apply]
  unfold LossSpec.loss LossSpec.negMean LossSpec.term
  simp only [val_main_v9_apply, val_main_v1_apply, val_main_v4_apply, val_main_v8_apply, val_main_v0_apply, val_main_c_apply,
    val_main_v3_apply, val_main_cst_apply, val_main_v2_apply, val_main_v7_apply, val_main_cst_0_apply, val_main_v6_apply,
    val_main_v5_apply, val_main_cst_1_apply, val_main_cst_2_apply, Ideal.hostNegf_def, Ideal.negf_def, Ideal.hostDivf_def,
    Ideal.mulf_def, Ideal.hostUnary_log_def, Ideal.hostUnary_log1p_def, Ideal.ofBits_def, Ideal.ofBits_zero_f32, zero_add]

end Cert.ReferenceIdeal.RefLoss
-- ==== Proof.lean ====
/-
  The balanced log loss: a kernel that streams the two flat arrays tile by tile into a one-element accumulator,
  against `-mean(where(t = 1, 2 · log p, 1 · log (1 + (-p))))` computed in one piece.

  Over the extended reals both programs end with the same scalar: minus the quotient by 2²⁵ of the sum, over all 2²⁵
  elements, of the element's contribution (`LossSpec.loss`). The reference computes it as written, with a leading zero
  in its sum (`RefLoss.result_eq`). The kernel reshapes both arguments to rows of 128 and visits 64 tiles of 4096 rows:
  the first visit stores zero and adds the tile's sum, each later visit adds its tile's sum to what the visit before
  left, the last visit also writes out the negated quotient of the total, and the host recasts that one-entry array to
  a scalar (`KernelLoss.run`). The two agree because a sum over the extended reals may be taken in any grouping —
  commutativity and associativity of the addition only, so no finiteness of the inputs is used — and because
  `0 - x = -x` and `0 + x = x` there.

  The three frames: each kernel program's is its generated frame; the reference's is its generated run with the result
  dropped. The idealization rewrote no operation, so there is nothing to preserve.
-/
import proofs.«122013_j40870908788864_1_alg».proof.Defs
import proofs.«122013_j40870908788864_1_alg».proof.Proof.Gen.Kernel
import proofs.«122013_j40870908788864_1_alg».proof.Proof.Gen.Kernel.Frame
import proofs.«122013_j40870908788864_1_alg».proof.Proof.Gen.KernelIdeal
import proofs.«122013_j40870908788864_1_alg».proof.Proof.Gen.KernelIdeal.Frame
import proofs.«122013_j40870908788864_1_alg».proof.Proof.Gen.ReferenceIdeal
import proofs.«122013_j40870908788864_1_alg».proof.Proof.Gen.Pre_finite_inputs
import proofs.«122013_j40870908788864_1_alg».proof.Proof.Gen.ReferenceIdeal.Run
import proofs.«122013_j40870908788864_1_alg».proof.Proof.Gen.ReferenceIdeal.Read
import proofs.«122013_j40870908788864_1_alg».proof.Proof.KernelLoss
import proofs.«122013_j40870908788864_1_alg».proof.Proof.RefLoss
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From arguments that agree, both programs end with the loss of those arguments. -/
theorem algebraic : Cert.algebraic_KernelIdeal_ReferenceIdeal := by
  intro m ρ m' ρ' _ hagree
  refine ⟨fun c => (fun _ => Cert.KernelIdeal.KernelLoss.lossOf m c), Cert.KernelIdeal.KernelLoss.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefLoss.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
